-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x10 : Shape := ⟨2, ![1048576, 10]⟩
abbrev S10x10 : Shape := ⟨2, ![10, 10]⟩
abbrev S19x100 : Shape := ⟨2, ![19, 100]⟩
abbrev S_ : Shape := ⟨0, ![]⟩

class Facts : Prop where
  bcast_S_S1048576x10 : S_.BroadcastsInDim S1048576x10 (![] : Fin 0 → Fin S1048576x10.rank)
  reducesTo_S1048576x10_S_d0_1 : S1048576x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_
  bcast_S_S19x100 : S_.BroadcastsInDim S19x100 (![] : Fin 0 → Fin S19x100.rank)
  reducesTo_S19x100_S_d0_1 : S19x100.ReducesTo [0, 1] S_

variable [Facts]

def fn_part1 {F : FTy → Type} [FloatOps F] (main_arg4 : FVec F S19x100 .f32) (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  let main_v19 : FVec F S19x100 .f32 := Host.absf main_arg4
  let main_cst_6 : FVec F S_ .f32 := constant S_ .f32 0x7F800000#32
  let main_v20 : FVec F S19x100 .f32 := broadcastInDim S19x100 ![] bcast_S_S19x100 main_cst_6
  let main_v21 : IVec S19x100 1 := cmpf .olt main_v19 main_v20
  let main_c_7 : IVec S_ 1 := constantI S_ 1 1#1
  let main_v22 : IVec S_ 1 := (fun x v => Host.reduce IntOp.andi x v reducesTo_S19x100_S_d0_1 h_S_) main_v21 main_c_7
  let main_v23 : IVec S_ 1 := andi main_v18 main_v22
  main_v23

def fn {F : FTy → Type} [FloatOps F] (main_arg0 : FVec F S1048576x10 .f32) (main_arg1 : FVec F S1048576x10 .f32) (main_arg2 : FVec F S10x10 .f32) (main_arg3 : FVec F S10x10 .f32) (main_arg4 : FVec F S19x100 .f32) : IVec S_ 1 :=
  let main_v0 : FVec F S1048576x10 .f32 := Host.absf main_arg0
  let main_cst : FVec F S_ .f32 := constant S_ .f32 0x7F800000#32
  let main_v1 : FVec F S1048576x10 .f32 := broadcastInDim S1048576x10 ![] bcast_S_S1048576x10 main_cst
  let main_v2 : IVec S1048576x10 1 := cmpf .olt main_v0 main_v1
  let main_c : IVec S_ 1 := constantI S_ 1 1#1
  let main_v3 : IVec S_ 1 := (fun x v => Host.reduce IntOp.andi x v reducesTo_S1048576x10_S_d0_1 h_S_) main_v2 main_c
  let main_v4 : FVec F S1048576x10 .f32 := Host.absf main_arg1
  let main_cst_0 : FVec F S_ .f32 := constant S_ .f32 0x7F800000#32
  let main_v5 : FVec F S1048576x10 .f32 := broadcastInDim S1048576x10 ![] bcast_S_S1048576x10 main_cst_0
  let main_v6 : IVec S1048576x10 1 := cmpf .olt main_v4 main_v5
  let main_c_1 : IVec S_ 1 := constantI S_ 1 1#1
  let main_v7 : IVec S_ 1 := (fun x v => Host.reduce IntOp.andi x v reducesTo_S1048576x10_S_d0_1 h_S_) main_v6 main_c_1
  let main_v8 : IVec S_ 1 := andi main_v3 main_v7
  let main_v9 : FVec F S10x10 .f32 := Host.absf main_arg2
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  let main_v14 : FVec F S10x10 .f32 := Host.absf main_arg3
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_arg4 main_v13 main_v16
-- ==== Kernel.lean ====
abbrev S1048576x10 : Shape := ⟨2, ![1048576, 10]⟩
abbrev S10x10 : Shape := ⟨2, ![10, 10]⟩
abbrev S19x100 : Shape := ⟨2, ![19, 100]⟩
abbrev S_ : Shape := ⟨0, ![]⟩
abbrev S10 : Shape := ⟨1, ![10]⟩
abbrev S10x1 : Shape := ⟨2, ![10, 1]⟩
abbrev S100x19 : Shape := ⟨2, ![100, 19]⟩
abbrev S1048576x19 : Shape := ⟨2, ![1048576, 19]⟩
abbrev S16384x10 : Shape := ⟨2, ![16384, 10]⟩
abbrev S16384x19 : Shape := ⟨2, ![16384, 19]⟩
abbrev S16384x10x1 : Shape := ⟨3, ![16384, 10, 1]⟩
abbrev S16384x1x10 : Shape := ⟨3, ![16384, 1, 10]⟩
abbrev S16384x10x10 : Shape := ⟨3, ![16384, 10, 10]⟩
abbrev S16384x100 : Shape := ⟨2, ![16384, 100]⟩
abbrev S16384 : Shape := ⟨1, ![16384]⟩
abbrev S16384x1 : Shape := ⟨2, ![16384, 1]⟩

abbrev nBuf : Space → Nat
  | .hbm => 35
  | .vmem => 9
  | .smem => 0
  | _ => 0

abbrev bufTy : (tb : Table) → Fin (tcTables nBuf tb) → BufTy
  | .hbm, ⟨0, _⟩ => ⟨S1048576x10, .f32⟩
  | .hbm, ⟨1, _⟩ => ⟨S1048576x10, .f32⟩
  | .hbm, ⟨2, _⟩ => ⟨S10x10, .f32⟩
  | .hbm, ⟨3, _⟩ => ⟨S10x10, .f32⟩
  | .hbm, ⟨4, _⟩ => ⟨S19x100, .f32⟩
  | .hbm, ⟨5, _⟩ => ⟨S_, .f32⟩
  | .hbm, ⟨6, _⟩ => ⟨S10, .f32⟩
  | .hbm, ⟨7, _⟩ => ⟨S10x1, .f32⟩
  | .hbm, ⟨8, _⟩ => ⟨S_, .f32⟩
  | .hbm, ⟨9, _⟩ => ⟨S10, .f32⟩
  | .hbm, ⟨10, _⟩ => ⟨S10x1, .f32⟩
  | .hbm, ⟨11, _⟩ => ⟨S10x10, .f32⟩
  | .hbm, ⟨12, _⟩ => ⟨S10x10, .f32⟩
  | .hbm, ⟨13, _⟩ => ⟨S10x1, .f32⟩
  | .hbm, ⟨14, _⟩ => ⟨S_, .f32⟩
  | .hbm, ⟨15, _⟩ => ⟨S10x1, .f32⟩
  | .hbm, ⟨16, _⟩ => ⟨S10x1, .f32⟩
  | .hbm, ⟨17, _⟩ => ⟨S10x10, .f32⟩
  | .hbm, ⟨18, _⟩ => ⟨S10x10, .f32⟩
  | .hbm, ⟨19, _⟩ => ⟨S_, .f32⟩
  | .hbm, ⟨20, _⟩ => ⟨S10, .f32⟩
  | .hbm, ⟨21, _⟩ => ⟨S10x1, .f32⟩
  | .hbm, ⟨22, _⟩ => ⟨S_, .f32⟩
  | .hbm, ⟨23, _⟩ => ⟨S10, .f32⟩
  | .hbm, ⟨24, _⟩ => ⟨S10x1, .f32⟩
  | .hbm, ⟨25, _⟩ => ⟨S10x10, .f32⟩
  | .hbm, ⟨26, _⟩ => ⟨S10x10, .f32⟩
  | .hbm, ⟨27, _⟩ => ⟨S10x1, .f32⟩
  | .hbm, ⟨28, _⟩ => ⟨S_, .f32⟩
  | .hbm, ⟨29, _⟩ => ⟨S10x1, .f32⟩
  | .hbm, ⟨30, _⟩ => ⟨S10x1, .f32⟩
  | .hbm, ⟨31, _⟩ => ⟨S10x10, .f32⟩
  | .hbm, ⟨32, _⟩ => ⟨S10x10, .f32⟩
  | .hbm, ⟨33, _⟩ => ⟨S100x19, .f32⟩
  | .hbm, ⟨34, _⟩ => ⟨S1048576x19, .f32⟩
  | .local _ .vmem, ⟨0, _⟩ => ⟨S16384x10, .f32⟩
  | .local _ .vmem, ⟨1, _⟩ => ⟨S16384x10, .f32⟩
  | .local _ .vmem, ⟨2, _⟩ => ⟨S16384x10, .f32⟩
  | .local _ .vmem, ⟨3, _⟩ => ⟨S16384x10, .f32⟩
  | .local _ .vmem, ⟨4, _⟩ => ⟨S10x10, .f32⟩
  | .local _ .vmem, ⟨5, _⟩ => ⟨S10x10, .f32⟩
  | .local _ .vmem, ⟨6, _⟩ => ⟨S100x19, .f32⟩
  | .local _ .vmem, ⟨7, _⟩ => ⟨S16384x19, .f32⟩
  | .local _ .vmem, ⟨8, _⟩ => ⟨S16384x19, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x19 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x19 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S10x10_S10_d1 : S10x10.ReducesTo [1] S10
  h_S_ : 0 < S_.numel
  bcast_S10_S10x1_0 : S10.BroadcastsInDim S10x1 (![0] : Fin 1 → Fin S10x1.rank)
  bcast_S10x1_S10x10_0_1 : S10x1.BroadcastsInDim S10x10 (![0, 1] : Fin 2 → Fin S10x10.rank)
  bcast_S_S10x1 : S_.BroadcastsInDim S10x1 (![] : Fin 0 → Fin S10x1.rank)
  transposes_S19x100_S100x19_1_0 : S19x100.Transposes [1, 0] S100x19
  inb_S16384x10_S16384x10_0_0 : ∀ a, (![0, 0] : Fin 2 → Nat) a + S16384x10.size a ≤ S16384x10.size a
  h_S16384x10 : 0 < S16384x10.numel
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S100x19_S100x19_0_0 : ∀ a, (![0, 0] : Fin 2 → Nat) a + S100x19.size a ≤ S100x19.size a
  h_S100x19 : 0 < S100x19.numel
  shapeCasts_S100x19_S100x19 : S100x19.ShapeCasts S100x19
  shapeCasts_S16384x10_S16384x10x1 : S16384x10.ShapeCasts S16384x10x1
  shapeCasts_S16384x10_S16384x1x10 : S16384x10.ShapeCasts S16384x1x10
  broadcasts_S16384x10x1_S16384x10x10 : S16384x10x1.Broadcasts S16384x10x10
  broadcasts_S16384x1x10_S16384x10x10 : S16384x1x10.Broadcasts S16384x10x10
  shapeCasts_S16384x10x10_S16384x100 : S16384x10x10.ShapeCasts S16384x100
  reduces_S16384x19_S16384 : S16384x19.Reduces [1] S16384
  shapeCasts_S16384_S16384x1 : S16384.ShapeCasts S16384x1
  broadcasts_S16384x1_S16384x19 : S16384x1.Broadcasts S16384x19
  inb_S16384x19_S16384x19_0_0 : ∀ a, (![0, 0] : Fin 2 → Nat) a + S16384x19.size a ≤ S16384x19.size a
  h_S16384x19 : 0 < S16384x19.numel
  dot_S16384x10_S10x10_S16384x10_1_0_0_1_n_n_wf : DotDims.WF S16384x10 S10x10 S16384x10 [1] [0] [0] [1] [] []
  dot_S16384x100_S100x19_S16384x19_1_0_0_1_n_n_wf : DotDims.WF S16384x100 S100x19 S16384x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x10.size a ≤ S1048576x10.size a
  hwx0_0 : ∀ i : grid0.Coords, EltTy.bits .f32 = 32 ∨ (Rect.block (s := S1048576x10) S16384x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x10.size a ≤ S1048576x10.size a
  hwx0_1 : ∀ i : grid0.Coords, EltTy.bits .f32 = 32 ∨ (Rect.block (s := S1048576x10) S16384x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .f32 = 32 ∨ (Rect.block (s := S10x10) S10x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x19.size a ≤ S100x19.size a
  hwx0_4 : ∀ i : grid0.Coords, EltTy.bits .f32 = 32 ∨ (Rect.block (s := S100x19) S100x19.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16384x19.size a ≤ S1048576x19.size a
  hwx0_5 : ∀ i : grid0.Coords, EltTy.bits .f32 = 32 ∨ (Rect.block (s := S1048576x19) S16384x19.size (cc0_transform_5 i) (hinb0_5 i)).WholeWords (EltTy.packing .f32)

variable [Facts₀]

def dot_S16384x10_S10x10_S16384x10_1_0_0_1_n_n : DotDims S16384x10 S10x10 S16384x10 where
  lhsContracting := [1]
  rhsContracting := [0]
  lhsNonContracting := [0]
  rhsNonContracting := [1]
  lhsBatch := []
  rhsBatch := []
  wf := dot_S16384x10_S10x10_S16384x10_1_0_0_1_n_n_wf
def dot_S16384x100_S100x19_S16384x19_1_0_0_1_n_n : DotDims S16384x100 S100x19 S16384x19 where
  lhsContracting := [1]
  rhsContracting := [0]
  lhsNonContracting := [0]
  rhsNonContracting := [1]
  lhsBatch := []
  rhsBatch := []
  wf := dot_S16384x100_S100x19_S16384x19_1_0_0_1_n_n_wf

abbrev win0_0 : Pipeline.Window sig grid0 :=
  Pipeline.Window.ofSpec (Memref.whole main_arg0) S16384x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S100x19.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S16384x19.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x10 : Shape := ⟨2, ![1048576, 10]⟩
abbrev S10x10 : Shape := ⟨2, ![10, 10]⟩
abbrev S19x100 : Shape := ⟨2, ![19, 100]⟩
abbrev S_ : Shape := ⟨0, ![]⟩
abbrev S10 : Shape := ⟨1, ![10]⟩
abbrev S10x1 : Shape := ⟨2, ![10, 1]⟩
abbrev S1048576x10x1 : Shape := ⟨3, ![1048576, 10, 1]⟩
abbrev S1048576x1x10 : Shape := ⟨3, ![1048576, 1, 10]⟩
abbrev S1048576x10x10 : Shape := ⟨3, ![1048576, 10, 10]⟩
abbrev S1048576x100 : Shape := ⟨2, ![1048576, 100]⟩
abbrev S100x19 : Shape := ⟨2, ![100, 19]⟩
abbrev S1048576x19 : Shape := ⟨2, ![1048576, 19]⟩
abbrev S1048576 : Shape := ⟨1, ![1048576]⟩
abbrev S1048576x1 : Shape := ⟨2, ![1048576, 1]⟩

abbrev nBuf : Space → Nat
  | .hbm => 70
  | .vmem => 0
  | .smem => 0
  | _ => 0

abbrev bufTy : (tb : Table) → Fin (tcTables nBuf tb) → BufTy
  | .hbm, ⟨0, _⟩ => ⟨S1048576x10, .f32⟩
  | .hbm, ⟨1, _⟩ => ⟨S1048576x10, .f32⟩
  | .hbm, ⟨2, _⟩ => ⟨S10x10, .f32⟩
  | .hbm, ⟨3, _⟩ => ⟨S10x10, .f32⟩
  | .hbm, ⟨4, _⟩ => ⟨S19x100, .f32⟩
  | .hbm, ⟨5, _⟩ => ⟨S_, .f32⟩
  | .hbm, ⟨6, _⟩ => ⟨S10, .f32⟩
  | .hbm, ⟨7, _⟩ => ⟨S10x1, .f32⟩
  | .hbm, ⟨8, _⟩ => ⟨S_, .f32⟩
  | .hbm, ⟨9, _⟩ => ⟨S10, .f32⟩
  | .hbm, ⟨10, _⟩ => ⟨S10x1, .f32⟩
  | .hbm, ⟨11, _⟩ => ⟨S10x10, .f32⟩
  | .hbm, ⟨12, _⟩ => ⟨S10x10, .f32⟩
  | .hbm, ⟨13, _⟩ => ⟨S10x1, .f32⟩
  | .hbm, ⟨14, _⟩ => ⟨S_, .f32⟩
  | .hbm, ⟨15, _⟩ => ⟨S10x1, .f32⟩
  | .hbm, ⟨16, _⟩ => ⟨S10x1, .f32⟩
  | .hbm, ⟨17, _⟩ => ⟨S10x10, .f32⟩
  | .hbm, ⟨18, _⟩ => ⟨S10x10, .f32⟩
  | .hbm, ⟨19, _⟩ => ⟨S1048576x10, .f32⟩
  | .hbm, ⟨20, _⟩ => ⟨S_, .f32⟩
  | .hbm, ⟨21, _⟩ => ⟨S10, .f32⟩
  | .hbm, ⟨22, _⟩ => ⟨S10x1, .f32⟩
  | .hbm, ⟨23, _⟩ => ⟨S_, .f32⟩
  | .hbm, ⟨24, _⟩ => ⟨S10, .f32⟩
  | .hbm, ⟨25, _⟩ => ⟨S10x1, .f32⟩
  | .hbm, ⟨26, _⟩ => ⟨S10x10, .f32⟩
  | .hbm, ⟨27, _⟩ => ⟨S10x10, .f32⟩
  | .hbm, ⟨28, _⟩ => ⟨S10x1, .f32⟩
  | .hbm, ⟨29, _⟩ => ⟨S_, .f32⟩
  | .hbm, ⟨30, _⟩ => ⟨S10x1, .f32⟩
  | .hbm, ⟨31, _⟩ => ⟨S10x1, .f32⟩
  | .hbm, ⟨32, _⟩ => ⟨S10x10, .f32⟩
  | .hbm, ⟨33, _⟩ => ⟨S10x10, .f32⟩
  | .hbm, ⟨34, _⟩ => ⟨S1048576x10, .f32⟩
  | .hbm, ⟨35, _⟩ => ⟨S1048576x10x1, .f32⟩
  | .hbm, ⟨36, _⟩ => ⟨S1048576x1x10, .f32⟩
  | .hbm, ⟨37, _⟩ => ⟨S1048576x10x10, .f32⟩
  | .hbm, ⟨38, _⟩ => ⟨S1048576x10x10, .f32⟩
  | .hbm, ⟨39, _⟩ => ⟨S1048576x10x10, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1048576x10x10, .f32⟩
  | .hbm, ⟨44, _⟩ => ⟨S1048576x10x10, .f32⟩
  | .hbm, ⟨45, _⟩ => ⟨S_, .f32⟩
  | .hbm, ⟨46, _⟩ => ⟨S1048576x10x10, .f32⟩
  | .hbm, ⟨47, _⟩ => ⟨S1048576x10x10, .f32⟩
  | .hbm, ⟨48, _⟩ => ⟨S_, .f32⟩
  | .hbm, ⟨49, _⟩ => ⟨S1048576x10x10, .f32⟩
  | .hbm, ⟨50, _⟩ => ⟨S1048576x10x10, .f32⟩
  | .hbm, ⟨51, _⟩ => ⟨S_, .f32⟩
  | .hbm, ⟨52, _⟩ => ⟨S1048576x10x10, .f32⟩
  | .hbm, ⟨53, _⟩ => ⟨S1048576x10x10, .f32⟩
  | .hbm, ⟨54, _⟩ => ⟨S1048576x10x10, .f32⟩
  | .hbm, ⟨55, _⟩ => ⟨S1048576x100, .f32⟩
  | .hbm, ⟨56, _⟩ => ⟨S100x19, .f32⟩
  | .hbm, ⟨57, _⟩ => ⟨S1048576x19, .f32⟩
  | .hbm, ⟨58, _⟩ => ⟨S1048576x19, .f32⟩
  | .hbm, ⟨59, _⟩ => ⟨S_, .f32⟩
  | .hbm, ⟨60, _⟩ => ⟨S1048576x19, .f32⟩
  | .hbm, ⟨61, _⟩ => ⟨S1048576x19, .f32⟩
  | .hbm, ⟨62, _⟩ => ⟨S_, .f32⟩
  | .hbm, ⟨63, _⟩ => ⟨S1048576, .f32⟩
  | .hbm, ⟨64, _⟩ => ⟨S1048576x1, .f32⟩
  | .hbm, ⟨65, _⟩ => ⟨S_, .f32⟩
  | .hbm, ⟨66, _⟩ => ⟨S1048576x1, .f32⟩
  | .hbm, ⟨67, _⟩ => ⟨S1048576x1, .f32⟩
  | .hbm, ⟨68, _⟩ => ⟨S1048576x19, .f32⟩
  | .hbm, ⟨69, _⟩ => ⟨S1048576x19, .f32⟩
  | _, _ => ⟨S1048576x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  reducesTo_S10x10_S10_d1 : S10x10.ReducesTo [1] S10
  h_S_ : 0 < S_.numel
  bcast_S10_S10x1_0 : S10.BroadcastsInDim S10x1 (![0] : Fin 1 → Fin S10x1.rank)
  bcast_S10x1_S10x10_0_1 : S10x1.BroadcastsInDim S10x10 (![0, 1] : Fin 2 → Fin S10x10.rank)
  bcast_S_S10x1 : S_.BroadcastsInDim S10x1 (![] : Fin 0 → Fin S10x1.rank)
  bcast_S1048576x10_S1048576x10x1_0_1 : S1048576x10.BroadcastsInDim S1048576x10x1 (![0, 1] : Fin 2 → Fin S1048576x10x1.rank)
  bcast_S1048576x10_S1048576x1x10_0_2 : S1048576x10.BroadcastsInDim S1048576x1x10 (![0, 2] : Fin 2 → Fin S1048576x1x10.rank)
  bcast_S1048576x10x1_S1048576x10x10_0_1_2 : S1048576x10x1.BroadcastsInDim S1048576x10x10 (![0, 1, 2] : Fin 3 → Fin S1048576x10x10.rank)
  bcast_S1048576x1x10_S1048576x10x10_0_1_2 : S1048576x1x10.BroadcastsInDim S1048576x10x10 (![0, 1, 2] : Fin 3 → Fin S1048576x10x10.rank)
  bcast_S_S1048576x10x10 : S_.BroadcastsInDim S1048576x10x10 (![] : Fin 0 → Fin S1048576x10x10.rank)
  shapeCasts_S1048576x10x10_S1048576x100 : S1048576x10x10.ShapeCasts S1048576x100
  transposes_S19x100_S100x19_1_0 : S19x100.Transposes [1, 0] S100x19
  bcast_S_S1048576x19 : S_.BroadcastsInDim S1048576x19 (![] : Fin 0 → Fin S1048576x19.rank)
  reducesTo_S1048576x19_S1048576_d1 : S1048576x19.ReducesTo [1] S1048576
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x19_0_1 : S1048576x1.BroadcastsInDim S1048576x19 (![0, 1] : Fin 2 → Fin S1048576x19.rank)
  dot_S1048576x10_S10x10_S1048576x10_1_0_0_1_n_n_wf : DotDims.WF S1048576x10 S10x10 S1048576x10 [1] [0] [0] [1] [] []
  dot_S1048576x100_S100x19_S1048576x19_1_0_0_1_n_n_wf : DotDims.WF S1048576x100 S100x19 S1048576x19 [1] [0] [0] [1] [] []

variable [Facts₀]

def dot_S1048576x10_S10x10_S1048576x10_1_0_0_1_n_n : DotDims S1048576x10 S10x10 S1048576x10 where
  lhsContracting := [1]
  rhsContracting := [0]
  lhsNonContracting := [0]
  rhsNonContracting := [1]
  lhsBatch := []
  rhsBatch := []
  wf := dot_S1048576x10_S10x10_S1048576x10_1_0_0_1_n_n_wf
def dot_S1048576x100_S100x19_S1048576x19_1_0_0_1_n_n : DotDims S1048576x100 S100x19 S1048576x19 where
  lhsContracting := [1]
  rhsContracting := [0]
  lhsNonContracting := [0]
  rhsNonContracting := [1]
  lhsBatch := []
  rhsBatch := []
  wf := dot_S1048576x100_S100x19_S1048576x19_1_0_0_1_n_n_wf

class Facts : Prop extends Facts₀ where

variable [Facts]
-- ==== Proof.RowSpec.lean ====
/-
  The function both programs compute, one batch row at a time.

  A row of the output depends on one row of each probability array and on three small operands shared by all rows: two
  10×10 leaf matrices `A`, `B` (the min-max-normalised weights) and the 100×19 bin matrix `M` (the transposed mask).
  For a row `p` of the first array and `q` of the second:
    leaf values        a i = ∑ j, p j · A (j, i)        b i = ∑ j, q j · B (j, i)
    pair cell (u, v)   ℓ (u, v) = log ((1 − min hi (max lo (min (a u) (b v)))) + ε₁)
    bin k              L k = ∑ over the hundred cells (u, v), flattened row-major as 10·u + v, of ℓ (u, v) · M (10·u + v, k)
    smooth or          y k = 1 − exp (L k)
    normalised         y k / ((∑ k', y k') + ε₂)
  Every operation is the extended reals' own (the ideal reading of a float operation); the five float constants are kept as
  the words both programs print, never evaluated.
-/
import Idealize.ShloMosaic.PureOps.Ideal
import Idealize.ShloMosaic.Lib.ValueIdx

noncomputable section

open scoped BigOperators

namespace Cert.RowSpec

open Idealize.ShloMosaic Idealize.ShloMosaic.ValueIdx

/-- The lower clamp, the word of `1e-6`. -/
abbrev lo : EReal := Ideal.ofBits .f32 0x358637BD#32
/-- The upper clamp, the word of `1 - 1e-6`. -/
abbrev hi : EReal := Ideal.ofBits .f32 0x3F7FFFEF#32
/-- The word of `1.0`. -/
abbrev one : EReal := Ideal.ofBits .f32 0x3F800000#32
/-- The offset inside the logarithm, the word of `1e-12`. -/
abbrev eps₁ : EReal := Ideal.ofBits .f32 0x2B8CBCCC#32
/-- The offset of the normalising sum, the word of `1e-9`. -/
abbrev eps₂ : EReal := Ideal.ofBits .f32 0x3089705F#32

/-- A 10×10 operand. -/
abbrev Mat10 : Type := (⟨2, ![10, 10]⟩ : Shape).Idx → EReal
/-- The 100×19 bin operand. -/
abbrev Bins : Type := (⟨2, ![100, 19]⟩ : Shape).Idx → EReal

/-- A row times a 10×10 matrix, at column `i`. -/
def rowDot (p : Fin 10 → EReal) (A : Mat10) (i : Fin 10) : EReal := ∑ j : Fin 10, p j * A (ix2 j i)

/-- One pair cell from its two leaf values: the clamped minimum's complement, offset, under the logarithm. -/
def pairLog (a b : EReal) : EReal := Ideal.log ((one - min hi (max lo (min a b))) + eps₁)

/-- Row-major position `k` of the 10×10 pair grid has row `k / 10` … -/
abbrev hiDigit (k : Fin 100) : Fin 10 := ⟨k.val / 10, by have := k.isLt; omega⟩
/-- … and column `k % 10`. -/
abbrev loDigit (k : Fin 100) : Fin 10 := ⟨k.val % 10, by have := k.isLt; omega⟩

/-- The hundred pair cells of a row, flattened row-major. -/
def cells (p q : Fin 10 → EReal) (A B : Mat10) (k : Fin 100) : EReal :=
  pairLog (rowDot p A (hiDigit k)) (rowDot q B (loDigit k))

/-- The smooth-or of bin `b`: one minus the exponential of the bin's masked sum of cells. -/
def orProb (p q : Fin 10 → EReal) (A B : Mat10) (M : Bins) (b : Fin 19) : EReal :=
  one - Ideal.exp (∑ k : Fin 100, cells p q A B k * M (ix2 k b))

/-- The row of the result: the smooth-ors normalised by their offset sum. -/
def rowOut (p q : Fin 10 → EReal) (A B : Mat10) (M : Bins) (b : Fin 19) : EReal :=
  Ideal.div (orProb p q A B M b) ((∑ b' : Fin 19, orProb p q A B M b') + eps₂)

/-- Row `r` of an `n`×10 array. -/
abbrev rowOf {n : Nat} (P : (⟨2, ![n, 10]⟩ : Shape).Idx → EReal) (r : Fin n) : Fin 10 → EReal := fun j => P (ix2 r j)

/-- The whole result: every row of the two `n`×10 arrays through `rowOut`. -/
def out {n : Nat} (P Q : (⟨2, ![n, 10]⟩ : Shape).Idx → EReal) (A B : Mat10) (M : Bins) :
    (⟨2, ![n, 19]⟩ : Shape).Idx → EReal :=
  fun i => rowOut (rowOf P ⟨(i 0).val, idx2_lt0 i⟩) (rowOf Q ⟨(i 0).val, idx2_lt0 i⟩) A B M ⟨(i 1).val, idx2_lt1 i⟩

/-- The result at explicit coordinates. -/
theorem out_ix2 {n : Nat} (P Q : (⟨2, ![n, 10]⟩ : Shape).Idx → EReal) (A B : Mat10) (M : Bins) (r : Fin n) (b : Fin 19) :
    out P Q A B M (ix2 r b) = rowOut (rowOf P r) (rowOf Q r) A B M b := rfl

end Cert.RowSpec

end
-- ==== Proof.RefRows.lean ====
/-
  The reference computes the row function.

  Its program is read one operation at a time (the generated stages `val_main_vN`): two whole-array matrix products with
  the normalised weights, the pair grid by two broadcasts and a minimum, the clamp, complement, offset and logarithm
  elementwise, a row-major flattening, the product with the transposed mask, the exponential's complement, and the row sum
  and quotient. Read at row `r`, each stage depends on row `r` of the two probability arrays only, and is the matching
  stage of `Cert.RowSpec`. The three small operands stay opaque: the normalised weights `val_main_v10 x2`,
  `val_main_v22 x3` and the transposed mask `val_main_v36 x4`.
-/
import proofs.«181216_j52192442581052_1_alg».proof.Proof.Gen.ReferenceIdeal.Read
import proofs.«181216_j52192442581052_1_alg».proof.Proof.RowSpec

noncomputable section

open scoped BigOperators

namespace Cert.ReferenceIdeal.RefRows

open Cert.ReferenceIdeal Cert.ReferenceIdeal.Read Idealize.ShloMosaic Idealize.ShloMosaic.ValueIdx Cert.RowSpec

variable (x0 x1 : (⟨S1048576x10, .f32⟩ : BufTy).Contents (Elt Ideal))
  (x2 x3 : (⟨S10x10, .f32⟩ : BufTy).Contents (Elt Ideal)) (x4 : (⟨S19x100, .f32⟩ : BufTy).Contents (Elt Ideal))

/-- The first leaf product at (r, i) is row r of the first array times the first normalised weight matrix. -/
theorem leaf₁ (r : Fin 1048576) (i : Fin 10) :
    val_main_v11 (F := Ideal) x0 x2 (ix2 r i) = rowDot (rowOf x0 r) (val_main_v10 (F := Ideal) x2) i := by
  rw [val_main_v11_apply]
  unfold rowDot
  refine Finset.sum_congr rfl fun k _ => ?_
  have el : lidx_main_v11 (ix2 r i) k = ix2 r k := funext fun a => by
    match a with | ⟨0, _⟩ => rfl | ⟨1, _⟩ => rfl
  have er : ridx_main_v11 (ix2 r i) k = ix2 k i := funext fun a => by
    match a with | ⟨0, _⟩ => rfl | ⟨1, _⟩ => rfl
  rw [el, er]

/-- The second leaf product likewise, from the second array and the second weight matrix. -/
theorem leaf₂ (r : Fin 1048576) (i : Fin 10) :
    val_main_v23 (F := Ideal) x1 x3 (ix2 r i) = rowDot (rowOf x1 r) (val_main_v22 (F := Ideal) x3) i := by
  rw [val_main_v23_apply]
  unfold rowDot
  refine Finset.sum_congr rfl fun k _ => ?_
  have el : lidx_main_v23 (ix2 r i) k = ix2 r k := funext fun a => by
    match a with | ⟨0, _⟩ => rfl | ⟨1, _⟩ => rfl
  have er : ridx_main_v23 (ix2 r i) k = ix2 k i := funext fun a => by
    match a with | ⟨0, _⟩ => rfl | ⟨1, _⟩ => rfl
  rw [el, er]

/-- The logarithm stage at cell (r, u, w) is `pairLog` of the two leaf values the broadcasts bring there. -/
theorem cell_eq (r : Fin 1048576) (u w : Fin 10) :
    val_main_v34 (F := Ideal) x0 x1 x2 x3 (ix3 r u w)
      = pairLog (val_main_v11 (F := Ideal) x0 x2 (ix2 r u)) (val_main_v23 (F := Ideal) x1 x3 (ix2 r w)) := by
  rw [val_main_v34_apply, val_main_v33_apply, val_main_v31_apply, val_main_v29_apply, val_main_call0_v2_apply,
    val_main_v28_apply, val_main_v26_apply, val_main_v24_apply, val_main_v27_apply, val_main_v25_apply,
    val_main_v30_apply, val_main_v32_apply, val_main_call0_v4_apply, val_main_call0_v1_apply]
  have e1 : idx_main_v24 (idx_main_v26 (ix3 r u w)) = ix2 r u := funext fun a => by
    match a with | ⟨0, _⟩ => rfl | ⟨1, _⟩ => rfl
  have e2 : idx_main_v25 (idx_main_v27 (ix3 r u w)) = ix2 r w := funext fun a => by
    match a with | ⟨0, _⟩ => rfl | ⟨1, _⟩ => rfl
  rw [e1, e2]
  rfl

/-- The flattening sends position k of row r to cell (k / 10, k % 10) of that row. -/
theorem flat_eq (r : Fin 1048576) (k : Fin 100) :
    val_main_v35 (F := Ideal) x0 x1 x2 x3 (ix2 r k)
      = val_main_v34 (F := Ideal) x0 x1 x2 x3 (ix3 r (hiDigit k) (loDigit k)) := by
  rw [val_main_v35_apply]
  refine congrArg _ (funext fun a => Fin.ext ?_)
  match a with
  | ⟨0, _⟩ => show (r.val * 100 + k.val) / 100 = r.val; have := k.isLt; omega
  | ⟨1, _⟩ => show (r.val * 100 + k.val) / 10 % 10 = k.val / 10; have := k.isLt; omega
  | ⟨2, _⟩ => show (r.val * 100 + k.val) % 10 = k.val % 10; omega

/-- The bin product at (r, b) sums row r of the flattened grid against column b of the transposed mask. -/
theorem bin_eq (r : Fin 1048576) (b : Fin 19) :
    val_main_v37 (F := Ideal) x0 x1 x2 x3 x4 (ix2 r b)
      = ∑ k : Fin 100, val_main_v35 (F := Ideal) x0 x1 x2 x3 (ix2 r k) * val_main_v36 (F := Ideal) x4 (ix2 k b) := by
  rw [val_main_v37_apply]
  refine Finset.sum_congr rfl fun k _ => ?_
  have el : lidx_main_v37 (ix2 r b) k = ix2 r k := funext fun a => by
    match a with | ⟨0, _⟩ => rfl | ⟨1, _⟩ => rfl
  have er : ridx_main_v37 (ix2 r b) k = ix2 k b := funext fun a => by
    match a with | ⟨0, _⟩ => rfl | ⟨1, _⟩ => rfl
  rw [el, er]

/-- The smooth-or stage at (r, b) is `orProb` of row r. -/
theorem or_eq (r : Fin 1048576) (b : Fin 19) :
    val_main_v40 (F := Ideal) x0 x1 x2 x3 x4 (ix2 r b)
      = orProb (rowOf x0 r) (rowOf x1 r) (val_main_v10 (F := Ideal) x2) (val_main_v22 (F := Ideal) x3)
          (val_main_v36 (F := Ideal) x4) b := by
  rw [val_main_v40_apply, val_main_v39_apply, val_main_v38_apply, bin_eq]
  unfold orProb
  refine congrArg (fun s => one - Ideal.exp s) (Finset.sum_congr rfl fun k _ => ?_)
  rw [flat_eq, cell_eq, leaf₁, leaf₂]
  rfl

/-- The reference's result is the row function of every row. -/
theorem result_eq :
    val_main_v46 (F := Ideal) x0 x1 x2 x3 x4
      = out x0 x1 (val_main_v10 (F := Ideal) x2) (val_main_v22 (F := Ideal) x3) (val_main_v36 (F := Ideal) x4) := by
  funext i
  obtain ⟨r, b, rfl⟩ : ∃ (r : Fin 1048576) (b : Fin 19), i = ix2 r b := ⟨i 0, i 1, eq_ix2 i⟩
  rw [out_ix2, val_main_v46_apply, val_main_v45_apply, val_main_v44_apply, val_main_v43_apply, val_main_v42_apply,
    val_main_v41_apply, or_eq]
  unfold rowOut
  have hs : (∑ k : Fin 19, val_main_v40 (F := Ideal) x0 x1 x2 x3 x4
        (idx_main_v41 (idx_main_v42 (idx_main_v45 (ix2 r b))) k))
      = ∑ b' : Fin 19, orProb (rowOf x0 r) (rowOf x1 r) (val_main_v10 (F := Ideal) x2) (val_main_v22 (F := Ideal) x3)
          (val_main_v36 (F := Ideal) x4) b' :=
    Finset.sum_congr rfl fun k _ => by
      have e : idx_main_v41 (idx_main_v42 (idx_main_v45 (ix2 r b))) k = ix2 r k := funext fun a => by
        match a with | ⟨0, _⟩ => rfl | ⟨1, _⟩ => rfl
      rw [e, or_eq]
  rw [hs]
  show Ideal.div _ ((Ideal.ofBits .f32 0x00000000#32 + _) + eps₂) = _
  rw [Ideal.ofBits_zero_f32, zero_add]

end Cert.ReferenceIdeal.RefRows

end
-- ==== Proof.LibAxisMoves.lean ====
/-
  Axis moves of a row tile, read at coordinates.

  Layout operations that a row-tiled kernel meets between its matmuls, each read at an index written `ixN …`
  (Lib/ValueIdx.lean), so that a lemma applies to a printed operation by unification. Every extent is arbitrary.
  • A [T,B] tile viewed as a column stack [T,B,1] or a row stack [T,1,B] (`x[:, :, None]`, `x[:, None, :]`):
    `cast_column`, `cast_row`.
  • A [T,B,1] column stack repeated along its last axis, a [T,1,C] row stack repeated along its middle axis, both to
    [T,B,C] — the two halves of an outer combination `f(x[:, :, None], y[:, None, :])`: `repeat_column`, `repeat_row`.
  • The [T,B,C] grid flattened over its last two axes to [T,N], N = B·C (`reshape(T, B*C)`): `flatten_last2`; position
    `k = u·C + w` of a row is the grid's entry (u, w).
  • The keepdims forms of a lane reduction: a [T] vector viewed as a [T,1] column, and a [T,1] column repeated across C
    columns (`x.sum(axis=1, keepdims=True)` broadcast against [T,C]): `cast_keepdim`, `repeat_keepdim`.
-/
import Idealize.ShloMosaic.Lib.Pipeline.Value
import Idealize.ShloMosaic.Lib.ValueIdx

namespace Cert.AxisMoves

open Idealize.ShloMosaic Idealize.ShloMosaic.ValueIdx

variable {α : Type}

/-- [T,B] viewed as [T,B,1]: the column entry (p, u, 0) is the tile's (p, u). -/
theorem cast_column {T B : ℕ} (v : (⟨2, ![T, B]⟩ : Shape).Idx → α)
    (h : (⟨2, ![T, B]⟩ : Shape).ShapeCasts ⟨3, ![T, B, 1]⟩) (p : Fin T) (u : Fin B) (z : Fin 1) :
    shapeCast ⟨3, ![T, B, 1]⟩ v h (ix3 p u z) = v (ix2 p u) := by
  refine shapeCast_apply v h (ix3 p u z) (ix2 p u) ?_
  rw [Shape.rowMajor_val_two, Shape.rowMajor_val_three]
  show p.val * B + u.val = (p.val * B + u.val) * 1 + z.val
  have := z.isLt; omega

/-- [T,B] viewed as [T,1,B]: the row entry (p, 0, w) is the tile's (p, w). -/
theorem cast_row {T B : ℕ} (v : (⟨2, ![T, B]⟩ : Shape).Idx → α)
    (h : (⟨2, ![T, B]⟩ : Shape).ShapeCasts ⟨3, ![T, 1, B]⟩) (p : Fin T) (z : Fin 1) (w : Fin B) :
    shapeCast ⟨3, ![T, 1, B]⟩ v h (ix3 p z w) = v (ix2 p w) := by
  refine shapeCast_apply v h (ix3 p z w) (ix2 p w) ?_
  rw [Shape.rowMajor_val_two, Shape.rowMajor_val_three]
  show p.val * B + w.val = (p.val * 1 + z.val) * B + w.val
  have hz : z.val = 0 := by have := z.isLt; omega
  rw [hz, Nat.mul_one, Nat.add_zero]

/-- A [T,B,1] column stack repeated along the last axis: (p, u, w) reads (p, u, 0). -/
theorem repeat_column {T B C : ℕ} (v : (⟨3, ![T, B, 1]⟩ : Shape).Idx → α)
    (h : (⟨3, ![T, B, 1]⟩ : Shape).Broadcasts ⟨3, ![T, B, C]⟩) (p : Fin T) (u : Fin B) (w : Fin C) :
    broadcastTo ⟨3, ![T, B, C]⟩ v h (ix3 p u w) = v (ix3 p u (0 : Fin 1)) := by
  refine broadcastTo_apply v h (ix3 p u w) (ix3 p u (0 : Fin 1)) fun ax => ?_
  match ax with
  | ⟨0, _⟩ =>
    show p.val = if T = 1 then 0 else p.val
    split
    · have := p.isLt; omega
    · rfl
  | ⟨1, _⟩ =>
    show u.val = if B = 1 then 0 else u.val
    split
    · have := u.isLt; omega
    · rfl
  | ⟨2, _⟩ => rfl

/-- A [T,1,C] row stack repeated along the middle axis: (p, u, w) reads (p, 0, w). -/
theorem repeat_row {T B C : ℕ} (v : (⟨3, ![T, 1, C]⟩ : Shape).Idx → α)
    (h : (⟨3, ![T, 1, C]⟩ : Shape).Broadcasts ⟨3, ![T, B, C]⟩) (p : Fin T) (u : Fin B) (w : Fin C) :
    broadcastTo ⟨3, ![T, B, C]⟩ v h (ix3 p u w) = v (ix3 p (0 : Fin 1) w) := by
  refine broadcastTo_apply v h (ix3 p u w) (ix3 p (0 : Fin 1) w) fun ax => ?_
  match ax with
  | ⟨0, _⟩ =>
    show p.val = if T = 1 then 0 else p.val
    split
    · have := p.isLt; omega
    · rfl
  | ⟨1, _⟩ => rfl
  | ⟨2, _⟩ =>
    show w.val = if C = 1 then 0 else w.val
    split
    · have := w.isLt; omega
    · rfl

/-- The [T,B,C] grid flattened row-major over its last two axes to [T,N], N = B·C: position k = u·C + w of row p is
    the grid's entry (p, u, w). -/
theorem flatten_last2 {T B C N : ℕ} (hN : B * C = N) (v : (⟨3, ![T, B, C]⟩ : Shape).Idx → α)
    (h : (⟨3, ![T, B, C]⟩ : Shape).ShapeCasts ⟨2, ![T, N]⟩) (p : Fin T) (k : Fin N)
    (u : Fin B) (w : Fin C) (hk : k.val = u.val * C + w.val) :
    shapeCast ⟨2, ![T, N]⟩ v h (ix2 p k) = v (ix3 p u w) := by
  refine shapeCast_apply v h (ix2 p k) (ix3 p u w) ?_
  rw [Shape.rowMajor_val_two, Shape.rowMajor_val_three]
  show (p.val * B + u.val) * C + w.val = p.val * N + k.val
  rw [hk, ← hN, Nat.add_mul, Nat.mul_assoc, Nat.add_assoc]

/-- A [T] vector viewed as a [T,1] column. -/
theorem cast_keepdim {T : ℕ} (v : (⟨1, ![T]⟩ : Shape).Idx → α)
    (h : (⟨1, ![T]⟩ : Shape).ShapeCasts ⟨2, ![T, 1]⟩) (p : Fin T) (z : Fin 1) :
    shapeCast ⟨2, ![T, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A [T,1] column repeated across C columns: (p, b) reads (p, 0). -/
theorem repeat_keepdim {T C : ℕ} (v : (⟨2, ![T, 1]⟩ : Shape).Idx → α)
    (h : (⟨2, ![T, 1]⟩ : Shape).Broadcasts ⟨2, ![T, C]⟩) (p : Fin T) (b : Fin C) :
    broadcastTo ⟨2, ![T, C]⟩ v h (ix2 p b) = v (ix2 p (0 : Fin 1)) := by
  refine broadcastTo_apply v h (ix2 p b) (ix2 p (0 : Fin 1)) fun ax => ?_
  match ax with
  | ⟨0, _⟩ =>
    show p.val = if T = 1 then 0 else p.val
    split
    · have := p.isLt; omega
    · rfl
  | ⟨1, _⟩ => rfl

end Cert.AxisMoves
-- ==== Proof.TileRows.lean ====
/-
  One grid step computes the row function on its tile.

  The kernel's body, one pure term of its five loaded blocks (a [16384,10] tile of each probability array, the two 10×10
  weight matrices, the 100×19 bin matrix), is cut into the stages of `Cert.RowSpec`: two leaf matmuls into a zero
  accumulator, the pair grid (column and row casts, two repeats, minimum, clamp, complement, offset, logarithm, row-major
  flattening), the bin matmul, and the normalisation (exponential's complement, lane sum kept as a column, offset, repeat,
  quotient). Read at row `p` of the tile each stage is the matching stage of the row function at the tile's row `p`: a
  tile row never meets another row.
-/
import proofs.«181216_j52192442581052_1_alg».proof.Proof.Gen.KernelIdeal.Skeleton
import proofs.«181216_j52192442581052_1_alg».proof.Proof.RowSpec
import proofs.«181216_j52192442581052_1_alg».proof.Proof.LibAxisMoves
import Idealize.ShloMosaic.PureOps.Ideal.Laws
import Idealize.ShloMosaic.Lib.ValueIdx
import Idealize.ShloMosaic.Lib.Pipeline.Value

noncomputable section

open scoped BigOperators

namespace Cert.KernelIdeal.TileRows

open Cert.KernelIdeal Cert.KernelIdeal.Gen Idealize.ShloMosaic Idealize.ShloMosaic.ValueIdx
open Cert.RowSpec Cert.AxisMoves

/-! ## The two matrix products at a tile row -/

theorem leafL0 (i : S16384x10.Idx) (q : dot_S16384x10_S10x10_S16384x10_1_0_0_1_n_n.contr.Idx) : (dot_S16384x10_S10x10_S16384x10_1_0_0_1_n_n.lhsIdx i q 0).val = (i 0).val := by
  unfold DotDims.lhsIdx
  rw [dif_neg (show ¬(0 : Fin S16384x10.rank) ∈ dot_S16384x10_S10x10_S16384x10_1_0_0_1_n_n.lhsBatch by decide),
    dif_pos (show (0 : Fin S16384x10.rank) ∈ dot_S16384x10_S10x10_S16384x10_1_0_0_1_n_n.lhsNonContracting by decide)]
  rfl
theorem leafL1 (i : S16384x10.Idx) (q : dot_S16384x10_S10x10_S16384x10_1_0_0_1_n_n.contr.Idx) : (dot_S16384x10_S10x10_S16384x10_1_0_0_1_n_n.lhsIdx i q 1).val = (q ⟨0, by decide⟩).val :=
  dot_S16384x10_S10x10_S16384x10_1_0_0_1_n_n.lhsIdx_val_of_single rfl i q
theorem leafR0 (i : S16384x10.Idx) (q : dot_S16384x10_S10x10_S16384x10_1_0_0_1_n_n.contr.Idx) : (dot_S16384x10_S10x10_S16384x10_1_0_0_1_n_n.rhsIdx i q 0).val = (q ⟨0, by decide⟩).val :=
  dot_S16384x10_S10x10_S16384x10_1_0_0_1_n_n.rhsIdx_val_of_single rfl i q
theorem leafR1 (i : S16384x10.Idx) (q : dot_S16384x10_S10x10_S16384x10_1_0_0_1_n_n.contr.Idx) : (dot_S16384x10_S10x10_S16384x10_1_0_0_1_n_n.rhsIdx i q 1).val = (i 1).val := by
  unfold DotDims.rhsIdx
  rw [dif_neg (show ¬(1 : Fin S10x10.rank) ∈ dot_S16384x10_S10x10_S16384x10_1_0_0_1_n_n.rhsBatch by decide),
    dif_pos (show (1 : Fin S10x10.rank) ∈ dot_S16384x10_S10x10_S16384x10_1_0_0_1_n_n.rhsNonContracting by decide)]
  rfl

/-- A leaf matmul into the zero accumulator, at (p, i): row p of the tile times the weight matrix. -/
theorem leaf_tile (x : FVec Ideal S16384x10 .f32) (w : FVec Ideal S10x10 .f32) (p : Fin 16384) (i : Fin 10) :
    matmul dot_S16384x10_S10x10_S16384x10_1_0_0_1_n_n none x w (constant (F := Ideal) S16384x10 .f32 0x00000000#32) (ix2 p i)
      = rowDot (fun j => x (ix2 p j)) w i := by
  refine (Ideal.matmul_constant_zero_apply dot_S16384x10_S10x10_S16384x10_1_0_0_1_n_n none x w (ix2 p i)).trans ?_
  rw [← Equiv.sum_comp (contrEquiv1 dot_S16384x10_S10x10_S16384x10_1_0_0_1_n_n 10 rfl rfl).symm]
  unfold rowDot
  refine Finset.sum_congr rfl fun k _ => ?_
  have hk := contrEquiv1_symm_val dot_S16384x10_S10x10_S16384x10_1_0_0_1_n_n 10 rfl rfl k
  have el : dot_S16384x10_S10x10_S16384x10_1_0_0_1_n_n.lhsIdx (ix2 p i) ((contrEquiv1 dot_S16384x10_S10x10_S16384x10_1_0_0_1_n_n 10 rfl rfl).symm k) = ix2 p k := funext fun a => Fin.ext (by
    match a with
    | ⟨0, _⟩ => exact leafL0 _ _
    | ⟨1, _⟩ => exact (leafL1 _ _).trans hk)
  have er : dot_S16384x10_S10x10_S16384x10_1_0_0_1_n_n.rhsIdx (ix2 p i) ((contrEquiv1 dot_S16384x10_S10x10_S16384x10_1_0_0_1_n_n 10 rfl rfl).symm k) = ix2 k i := funext fun a => Fin.ext (by
    match a with
    | ⟨0, _⟩ => exact (leafR0 _ _).trans hk
    | ⟨1, _⟩ => exact leafR1 _ _)
  rw [el, er]

theorem binL0 (i : S16384x19.Idx) (q : dot_S16384x100_S100x19_S16384x19_1_0_0_1_n_n.contr.Idx) : (dot_S16384x100_S100x19_S16384x19_1_0_0_1_n_n.lhsIdx i q 0).val = (i 0).val := by
  unfold DotDims.lhsIdx
  rw [dif_neg (show ¬(0 : Fin S16384x100.rank) ∈ dot_S16384x100_S100x19_S16384x19_1_0_0_1_n_n.lhsBatch by decide),
    dif_pos (show (0 : Fin S16384x100.rank) ∈ dot_S16384x100_S100x19_S16384x19_1_0_0_1_n_n.lhsNonContracting by decide)]
  rfl
theorem binL1 (i : S16384x19.Idx) (q : dot_S16384x100_S100x19_S16384x19_1_0_0_1_n_n.contr.Idx) : (dot_S16384x100_S100x19_S16384x19_1_0_0_1_n_n.lhsIdx i q 1).val = (q ⟨0, by decide⟩).val :=
  dot_S16384x100_S100x19_S16384x19_1_0_0_1_n_n.lhsIdx_val_of_single rfl i q
theorem binR0 (i : S16384x19.Idx) (q : dot_S16384x100_S100x19_S16384x19_1_0_0_1_n_n.contr.Idx) : (dot_S16384x100_S100x19_S16384x19_1_0_0_1_n_n.rhsIdx i q 0).val = (q ⟨0, by decide⟩).val :=
  dot_S16384x100_S100x19_S16384x19_1_0_0_1_n_n.rhsIdx_val_of_single rfl i q
theorem binR1 (i : S16384x19.Idx) (q : dot_S16384x100_S100x19_S16384x19_1_0_0_1_n_n.contr.Idx) : (dot_S16384x100_S100x19_S16384x19_1_0_0_1_n_n.rhsIdx i q 1).val = (i 1).val := by
  unfold DotDims.rhsIdx
  rw [dif_neg (show ¬(1 : Fin S100x19.rank) ∈ dot_S16384x100_S100x19_S16384x19_1_0_0_1_n_n.rhsBatch by decide),
    dif_pos (show (1 : Fin S100x19.rank) ∈ dot_S16384x100_S100x19_S16384x19_1_0_0_1_n_n.rhsNonContracting by decide)]
  rfl

/-- The bin matmul into the zero accumulator, at (p, b): row p of the flattened grid against column b. -/
theorem bin_tile (g : FVec Ideal S16384x100 .f32) (w : FVec Ideal S100x19 .f32) (p : Fin 16384) (b : Fin 19) :
    matmul dot_S16384x100_S100x19_S16384x19_1_0_0_1_n_n none g w (constant (F := Ideal) S16384x19 .f32 0x00000000#32) (ix2 p b)
      = ∑ k : Fin 100, g (ix2 p k) * w (ix2 k b) := by
  refine (Ideal.matmul_constant_zero_apply dot_S16384x100_S100x19_S16384x19_1_0_0_1_n_n none g w (ix2 p b)).trans ?_
  rw [← Equiv.sum_comp (contrEquiv1 dot_S16384x100_S100x19_S16384x19_1_0_0_1_n_n 100 rfl rfl).symm]
  refine Finset.sum_congr rfl fun k _ => ?_
  have hk := contrEquiv1_symm_val dot_S16384x100_S100x19_S16384x19_1_0_0_1_n_n 100 rfl rfl k
  have el : dot_S16384x100_S100x19_S16384x19_1_0_0_1_n_n.lhsIdx (ix2 p b) ((contrEquiv1 dot_S16384x100_S100x19_S16384x19_1_0_0_1_n_n 100 rfl rfl).symm k) = ix2 p k := funext fun a => Fin.ext (by
    match a with
    | ⟨0, _⟩ => exact binL0 _ _
    | ⟨1, _⟩ => exact (binL1 _ _).trans hk)
  have er : dot_S16384x100_S100x19_S16384x19_1_0_0_1_n_n.rhsIdx (ix2 p b) ((contrEquiv1 dot_S16384x100_S100x19_S16384x19_1_0_0_1_n_n 100 rfl rfl).symm k) = ix2 k b := funext fun a => Fin.ext (by
    match a with
    | ⟨0, _⟩ => exact (binR0 _ _).trans hk
    | ⟨1, _⟩ => exact binR1 _ _)
  rw [el, er]

/-! ## The pair grid of a tile -/

/-- From two [16384,10] tiles of leaf values to the flattened [16384,100] tile of pair cells. -/
def gridOf (a b : FVec Ideal S16384x10 .f32) : FVec Ideal S16384x100 .f32 :=
  shapeCast S16384x100
    (log (addf (subf (broadcast S16384x10x10 (Scalar.ofBits (F := Ideal) .f32 0x3F800000#32))
      (minimumf (broadcast S16384x10x10 (Scalar.ofBits (F := Ideal) .f32 0x3F7FFFEF#32))
        (maximumf (broadcast S16384x10x10 (Scalar.ofBits (F := Ideal) .f32 0x358637BD#32))
          (minimumf (broadcastTo S16384x10x10 (shapeCast S16384x10x1 a shapeCasts_S16384x10_S16384x10x1) broadcasts_S16384x10x1_S16384x10x10)
            (broadcastTo S16384x10x10 (shapeCast S16384x1x10 b shapeCasts_S16384x10_S16384x1x10) broadcasts_S16384x1x10_S16384x10x10)))))
      (broadcast S16384x10x10 (Scalar.ofBits (F := Ideal) .f32 0x2B8CBCCC#32))))
    shapeCasts_S16384x10x10_S16384x100

/-- Position k of row p of the flattened grid is the pair cell of the two leaf values at (p, k / 10) and (p, k % 10). -/
theorem gridOf_apply (a b : FVec Ideal S16384x10 .f32) (p : Fin 16384) (k : Fin 100) :
    gridOf a b (ix2 p k) = pairLog (a (ix2 p (hiDigit k))) (b (ix2 p (loDigit k))) := by
  unfold gridOf
  have hk : k.val = (hiDigit k).val * 10 + (loDigit k).val := by
    show k.val = k.val / 10 * 10 + k.val % 10; omega
  refine (flatten_last2 (show 10 * 10 = 100 from rfl) _ shapeCasts_S16384x10x10_S16384x100 p k (hiDigit k) (loDigit k) hk).trans ?_
  show Ideal.log ((one - min hi (max lo (min
      (broadcastTo S16384x10x10 (shapeCast S16384x10x1 a shapeCasts_S16384x10_S16384x10x1) broadcasts_S16384x10x1_S16384x10x10 (ix3 p (hiDigit k) (loDigit k)))
      (broadcastTo S16384x10x10 (shapeCast S16384x1x10 b shapeCasts_S16384x10_S16384x1x10) broadcasts_S16384x1x10_S16384x10x10 (ix3 p (hiDigit k) (loDigit k)))))) + eps₁) = _
  rw [repeat_column, cast_column, repeat_row, cast_row]
  rfl

/-! ## The normalisation of a tile -/

/-- The smooth-or of a [16384,19] tile of bin sums. -/
def orTile (L : FVec Ideal S16384x19 .f32) : FVec Ideal S16384x19 .f32 :=
  subf (broadcast S16384x19 (Scalar.ofBits (F := Ideal) .f32 0x3F800000#32)) (exp L)

theorem orTile_apply (L : FVec Ideal S16384x19 .f32) (i : S16384x19.Idx) : orTile L i = one - Ideal.exp (L i) := rfl

/-- The lane sum of a [16384,19] tile, at row p: the sum over the 19 bins. -/
theorem lane_sum (src : FVec Ideal S16384x19 .f32) (h : S16384x19.Reduces [1] S16384) (hφ : FKind.Formats .f32)
    (hacc : (0x00000000#32 : BitVec 32) = 0x00000000#32) (p : Fin 16384) :
    multiReduction .add [1] S16384 src 0x00000000#32 h hφ hacc (ix1 p) = ∑ b : Fin 19, src (ix2 p b) := by
  refine (Ideal.multiReduction_add_single src 0x00000000#32 h hφ hacc (ix1 p)).trans ?_
  show ∑ k : Fin 19, src (h.lift (ix1 p) k) = _
  refine Finset.sum_congr rfl fun k _ => congrArg src (funext fun a => Fin.ext ?_)
  match a with
  | ⟨0, _⟩ => rfl
  | ⟨1, _⟩ => rfl

/-- From the tile of bin sums to the tile of the result: each smooth-or over its row's offset sum. -/
def normalise (L : FVec Ideal S16384x19 .f32) : FVec Ideal S16384x19 .f32 :=
  divf (orTile L)
    (broadcastTo S16384x19
      (addf (shapeCast S16384x1 (multiReduction .add [1] S16384 (orTile L) 0x00000000#32 reduces_S16384x19_S16384 (.inl rfl) rfl) shapeCasts_S16384_S16384x1)
        (broadcast S16384x1 (Scalar.ofBits (F := Ideal) .f32 0x3089705F#32)))
      broadcasts_S16384x1_S16384x19)

/-- A splat of a float word reads the word's value everywhere. -/
theorem splat_apply (S : Shape) (w : BitVec 32) (i : S.Idx) :
    broadcast S (Scalar.ofBits (F := Ideal) .f32 w) i = Ideal.ofBits .f32 w := rfl

theorem normalise_apply (L : FVec Ideal S16384x19 .f32) (p : Fin 16384) (b : Fin 19) :
    normalise L (ix2 p b) = Ideal.div (orTile L (ix2 p b)) ((∑ b' : Fin 19, orTile L (ix2 p b')) + eps₂) := by
  unfold normalise
  rw [divf_apply, repeat_keepdim, addf_apply, cast_keepdim, lane_sum, splat_apply]

/-! ## The body's term, stage by stage -/

/-- The tile of bin sums from the five loaded blocks. -/
def binSums (x0 x1 : FVec Ideal S16384x10 .f32) (x2 x3 : FVec Ideal S10x10 .f32) (x4 : FVec Ideal S100x19 .f32) :
    FVec Ideal S16384x19 .f32 :=
  matmul dot_S16384x100_S100x19_S16384x19_1_0_0_1_n_n none
    (gridOf (matmul dot_S16384x10_S10x10_S16384x10_1_0_0_1_n_n none x0 (shapeCast S10x10 x2 shapeCasts_S10x10_S10x10) (constant S16384x10 .f32 0x00000000#32))
      (matmul dot_S16384x10_S10x10_S16384x10_1_0_0_1_n_n none x1 (shapeCast S10x10 x3 shapeCasts_S10x10_S10x10) (constant S16384x10 .f32 0x00000000#32)))
    (shapeCast S100x19 x4 shapeCasts_S100x19_S100x19) (constant S16384x19 .f32 0x00000000#32)

/-- The printed body is these stages composed. -/
theorem pay_stages (x0 x1 : FVec Ideal S16384x10 .f32) (x2 x3 : FVec Ideal S10x10 .f32) (x4 : FVec Ideal S100x19 .f32) :
    k0_pay1 (F := Ideal) x0 x1 x2 x3 x4 = normalise (binSums x0 x1 x2 x3 x4) := rfl

/-- The smooth-or of the tile's bin sums at (p, b) is the row function's, of row p of the two tiles. -/
theorem or_tile (x0 x1 : FVec Ideal S16384x10 .f32) (x2 x3 : FVec Ideal S10x10 .f32) (x4 : FVec Ideal S100x19 .f32)
    (p : Fin 16384) (b : Fin 19) :
    orTile (binSums x0 x1 x2 x3 x4) (ix2 p b)
      = orProb (fun j => x0 (ix2 p j)) (fun j => x1 (ix2 p j)) x2 x3 x4 b := by
  rw [orTile_apply]
  unfold binSums orProb
  rw [bin_tile, shapeCast_self, shapeCast_self, shapeCast_self]
  refine congrArg (fun s => one - Ideal.exp s) (Finset.sum_congr rfl fun k _ => ?_)
  rw [gridOf_apply, leaf_tile, leaf_tile]
  rfl

/-- THE BODY AT A TILE ROW: entry (p, b) of what a grid step stores is the row function of row p of its two tiles. -/
theorem pay_row (x0 x1 : FVec Ideal S16384x10 .f32) (x2 x3 : FVec Ideal S10x10 .f32) (x4 : FVec Ideal S100x19 .f32)
    (p : Fin 16384) (b : Fin 19) :
    k0_pay1 (F := Ideal) x0 x1 x2 x3 x4 (ix2 p b)
      = rowOut (fun j => x0 (ix2 p j)) (fun j => x1 (ix2 p j)) x2 x3 x4 b := by
  rw [pay_stages]
  refine (normalise_apply _ p b).trans ?_
  unfold rowOut
  rw [or_tile]
  exact congrArg (fun s => Ideal.div _ (s + eps₂)) (Finset.sum_congr rfl fun b' _ => or_tile x0 x1 x2 x3 x4 p b')

end Cert.KernelIdeal.TileRows

end
-- ==== Proof.Tiles.lean ====
/-
  From tiles to the whole array.

  Grid step `t` (of 64) reads rows `16384·t … 16384·t + 16383` of the two probability arrays, the whole of the three
  small operands, and writes the same rows of the result. Its body computes the row function on that tile
  (`TileRows.pay_row`), so what it writes back is the tile of one whole-array function, `whole`: every row of the two
  arrays through the row function, with the small operands as the region finds them. The 64 row tiles cover the array
  (row `r` is in tile `r / 16384`), so after the run the result array is `whole`.
-/
import proofs.«181216_j52192442581052_1_alg».proof.Proof.Gen.KernelIdeal.Value
import proofs.«181216_j52192442581052_1_alg».proof.Proof.TileRows
import Idealize.ShloMosaic.Lib.Pipeline.Value

noncomputable section

open scoped BigOperators

namespace Cert.KernelIdeal.Tiles

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.RowSpec

variable (m : (ℓ : Loc nD τ sig) → Buf (Elt Ideal) ℓ) (ρ : Dev nD → PrngReg)

theorem hz : (![0, 0] : Fin 2 → Nat) = fun _ => 0 := funext fun a => by fin_cases a <;> rfl

/-- The result array as one function: every row of the two probability arrays through the row function, the weights and
    the bin matrix as the host operations before the region left them. -/
abbrev whole (c : Dev nD) : S1048576x19.Idx → EReal :=
  out (n := 1048576) (V m c main_arg0 : S1048576x10.Idx → EReal) (V m c main_arg1 : S1048576x10.Idx → EReal)
    (V m c main_v10 : S10x10.Idx → EReal) (V m c main_v21 : S10x10.Idx → EReal) (V m c main_v22 : S100x19.Idx → EReal)

/-- The block indices over the grid: the two probability windows and the result window are at row block `t`, the three
    small windows at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the first probability tile at step t is row 16384·t + p of the array. -/
theorem tile0 (c : Dev nD) (t : Fin cfg0.N) (p : Fin 16384) (j : Fin 10) (r : Fin 1048576)
    (hr : r.val = t.val * 16384 + p.val) :
    (iblk m c 0 t : Vec Ideal S16384x10 .f32) (ix2 p j) = (V m c main_arg0 : S1048576x10.Idx → EReal) (ix2 r j) := by
  obtain ⟨e0, e1, -⟩ := idx_facts t
  unfold iblk
  rw [View.read_apply]
  show (V m c main_arg0 : S1048576x10.Idx → EReal) _ = _
  refine congrArg (V m c main_arg0 : S1048576x10.Idx → EReal) (funext fun a => Fin.ext ?_)
  match a with
  | ⟨0, _⟩ => show win0_0.index t (0 : Fin 2) * 16384 + 1 * p.val = r.val; rw [e0, hr]; omega
  | ⟨1, _⟩ => show win0_0.index t (1 : Fin 2) * 10 + 1 * j.val = j.val; rw [e1]; omega

/-- The same for the second probability tile. -/
theorem tile1 (c : Dev nD) (t : Fin cfg0.N) (p : Fin 16384) (j : Fin 10) (r : Fin 1048576)
    (hr : r.val = t.val * 16384 + p.val) :
    (iblk m c 1 t : Vec Ideal S16384x10 .f32) (ix2 p j) = (V m c main_arg1 : S1048576x10.Idx → EReal) (ix2 r j) := by
  obtain ⟨-, -, e0, e1, -⟩ := idx_facts t
  unfold iblk
  rw [View.read_apply]
  show (V m c main_arg1 : S1048576x10.Idx → EReal) _ = _
  refine congrArg (V m c main_arg1 : S1048576x10.Idx → EReal) (funext fun a => Fin.ext ?_)
  match a with
  | ⟨0, _⟩ => show win0_1.index t (0 : Fin 2) * 16384 + 1 * p.val = r.val; rw [e0, hr]; omega
  | ⟨1, _⟩ => show win0_1.index t (1 : Fin 2) * 10 + 1 * j.val = j.val; rw [e1]; omega

/-- The first weight window's one block is the whole normalised weight matrix. -/
theorem tile2 (c : Dev nD) (t : Fin cfg0.N) :
    (iblk m c 2 t : Vec Ideal S10x10 .f32) = (V m c main_v10 : S10x10.Idx → EReal) := by
  obtain ⟨-, -, -, -, e0, e1, -⟩ := idx_facts t
  funext x
  unfold iblk
  rw [View.read_apply]
  show (V m c main_v10 : S10x10.Idx → EReal) _ = _
  refine congrArg (V m c main_v10 : S10x10.Idx → EReal) (funext fun a => Fin.ext ?_)
  match a with
  | ⟨0, _⟩ => show win0_2.index t (0 : Fin 2) * 10 + 1 * (x 0).val = (x 0).val; rw [e0]; omega
  | ⟨1, _⟩ => show win0_2.index t (1 : Fin 2) * 10 + 1 * (x 1).val = (x 1).val; rw [e1]; omega

/-- The second weight window likewise. -/
theorem tile3 (c : Dev nD) (t : Fin cfg0.N) :
    (iblk m c 3 t : Vec Ideal S10x10 .f32) = (V m c main_v21 : S10x10.Idx → EReal) := by
  obtain ⟨-, -, -, -, -, -, e0, e1, -⟩ := idx_facts t
  funext x
  unfold iblk
  rw [View.read_apply]
  show (V m c main_v21 : S10x10.Idx → EReal) _ = _
  refine congrArg (V m c main_v21 : S10x10.Idx → EReal) (funext fun a => Fin.ext ?_)
  match a with
  | ⟨0, _⟩ => show win0_3.index t (0 : Fin 2) * 10 + 1 * (x 0).val = (x 0).val; rw [e0]; omega
  | ⟨1, _⟩ => show win0_3.index t (1 : Fin 2) * 10 + 1 * (x 1).val = (x 1).val; rw [e1]; omega

/-- The bin window's one block is the whole transposed mask. -/
theorem tile4 (c : Dev nD) (t : Fin cfg0.N) :
    (iblk m c 4 t : Vec Ideal S100x19 .f32) = (V m c main_v22 : S100x19.Idx → EReal) := by
  obtain ⟨-, -, -, -, -, -, -, -, e0, e1, -⟩ := idx_facts t
  funext x
  unfold iblk
  rw [View.read_apply]
  show (V m c main_v22 : S100x19.Idx → EReal) _ = _
  refine congrArg (V m c main_v22 : S100x19.Idx → EReal) (funext fun a => Fin.ext ?_)
  match a with
  | ⟨0, _⟩ => show win0_4.index t (0 : Fin 2) * 100 + 1 * (x 0).val = (x 0).val; rw [e0]; omega
  | ⟨1, _⟩ => show win0_4.index t (1 : Fin 2) * 19 + 1 * (x 1).val = (x 1).val; rw [e1]; omega

/-- A tile's body against the whole-array function: when the two probability blocks are rows `16384·T + p` of two
    arrays and the three small blocks are the small operands, entry `y` of what the body stores is the whole-array
    function at the entry `16384·T` rows further down. -/
theorem body_rows (X0 X1 : (⟨2, ![1048576, 10]⟩ : Shape).Idx → EReal) (A B : Mat10) (M : Bins)
    (x0 x1 : Vec Ideal S16384x10 .f32) (x2 x3 : Vec Ideal S10x10 .f32) (x4 : Vec Ideal S100x19 .f32) (T : ℕ)
    (h0 : ∀ (p : Fin 16384) (j : Fin 10) (r : Fin 1048576), r.val = T * 16384 + p.val → x0 (ix2 p j) = X0 (ix2 r j))
    (h1 : ∀ (p : Fin 16384) (j : Fin 10) (r : Fin 1048576), r.val = T * 16384 + p.val → x1 (ix2 p j) = X1 (ix2 r j))
    (h2 : x2 = A) (h3 : x3 = B) (h4 : x4 = M)
    (y : S16384x19.Idx) (i : S1048576x19.Idx) (hi0 : (i 0).val = T * 16384 + (y 0).val) (hi1 : (i 1).val = (y 1).val) :
    k0_pay1 x0 x1 x2 x3 x4 y = out X0 X1 A B M i := by
  obtain ⟨p, b, rfl⟩ : ∃ (p : Fin 16384) (b : Fin 19), y = ix2 p b := ⟨y 0, y 1, eq_ix2 y⟩
  obtain ⟨r, b', rfl⟩ : ∃ (r : Fin 1048576) (b' : Fin 19), i = ix2 r b' := ⟨i 0, i 1, eq_ix2 i⟩
  obtain rfl : b' = b := Fin.ext hi1
  subst h2 h3 h4
  rw [TileRows.pay_row, out_ix2]
  have e0 : (fun j => x0 (ix2 p j)) = rowOf X0 r := funext fun j => h0 p j r hi0
  have e1 : (fun j => x1 (ix2 p j)) = rowOf X1 r := funext fun j => h1 p j r hi0
  rw [e0, e1]

/-- WHAT STEP `t` WRITES BACK is tile `t` of `whole`. -/
theorem flushed_eq (c : Dev nD) (t : Fin cfg0.N) :
    (dats m 0 c).flushed 5 t = ((cfg0.win 5).blk t).view.read (Elt Ideal) (whole m c) := by
  rw [flushed5]
  unfold out0_5
  rw [View.canon_unit_zero hz]
  simp only [View.ld_unit_zero (S := S16384x10) hz, View.ld_unit_zero (S := S10x10) hz, View.ld_unit_zero (S := S100x19) hz]
  obtain ⟨-, -, -, -, -, -, -, -, -, -, e50, e51⟩ := idx_facts t
  funext y
  show k0_pay1 (iblk m c 0 t) (iblk m c 1 t) (iblk m c 2 t) (iblk m c 3 t) (iblk m c 4 t) y
    = whole m c (((cfg0.win 5).blk t).view.emb y)
  refine body_rows (V m c main_arg0 : S1048576x10.Idx → EReal) (V m c main_arg1 : S1048576x10.Idx → EReal)
    (V m c main_v10 : S10x10.Idx → EReal) (V m c main_v21 : S10x10.Idx → EReal) (V m c main_v22 : S100x19.Idx → EReal)
    (iblk m c 0 t) (iblk m c 1 t) (iblk m c 2 t) (iblk m c 3 t) (iblk m c 4 t) t.val
    (fun p j r hr => tile0 m c t p j r hr) (fun p j r hr => tile1 m c t p j r hr)
    (tile2 m c t) (tile3 m c t) (tile4 m c t) y (((cfg0.win 5).blk t).view.emb y) ?_ ?_
  · show win0_5.index t (0 : Fin 2) * 16384 + 1 * (y 0).val = t.val * 16384 + (y 0).val
    rw [e50]; omega
  · show win0_5.index t (1 : Fin 2) * 19 + 1 * (y 1).val = (y 1).val
    rw [e51]; omega

/-- An index of the result array is in step `t`'s tile iff each coordinate is in the tile's range on its axis. -/
theorem mem_blk (t : Fin cfg0.N) (i : S1048576x19.Idx) :
    i ∈ ((cfg0.win 5).blk t).view.set ↔ ∀ a : Fin 2, win0_5.index t a * S16384x19.size a ≤ (i a).val
      ∧ (i a).val < win0_5.index t a * S16384x19.size a + S16384x19.size a := by
  show i ∈ ((View.whole main_v23).slice (win0_5.rect t)).set ↔ _
  rw [View.set_slice_whole, Rect.mem_set_unit]
  exact Iff.rfl

/-- Every row of the result is in the tile of the step `row / 16384`. -/
theorem cover (i : S1048576x19.Idx) :
    ∃ t : Fin cfg0.N, (cfg0.win 5).flush t = true ∧ i ∈ ((cfg0.win 5).blk t).view.set := by
  have hi0 : (i 0).val < 1048576 := (i 0).isLt
  have hi1 : (i 1).val < 19 := (i 1).isLt
  have hN : cfg0.N = 64 := N_0
  have ht : (i 0).val / 16384 < cfg0.N := by rw [hN]; omega
  obtain ⟨-, -, -, -, -, -, -, -, -, -, e50, e51⟩ := idx_facts ⟨(i 0).val / 16384, ht⟩
  refine ⟨⟨(i 0).val / 16384, ht⟩, flush0_5 _, ?_⟩
  rw [mem_blk]
  intro a
  match a with
  | ⟨0, _⟩ =>
    show win0_5.index ⟨(i 0).val / 16384, ht⟩ (0 : Fin 2) * 16384 ≤ (i 0).val
      ∧ (i 0).val < win0_5.index ⟨(i 0).val / 16384, ht⟩ (0 : Fin 2) * 16384 + 16384
    rw [e50]
    show (i 0).val / 16384 * 16384 ≤ (i 0).val ∧ (i 0).val < (i 0).val / 16384 * 16384 + 16384
    omega
  | ⟨1, _⟩ =>
    show win0_5.index ⟨(i 0).val / 16384, ht⟩ (1 : Fin 2) * 19 ≤ (i 1).val
      ∧ (i 1).val < win0_5.index ⟨(i 0).val / 16384, ht⟩ (1 : Fin 2) * 19 + 19
    rw [e51]
    omega

/-- So after the run the result array is `whole`. -/
theorem final (c : Dev nD) : (dats m 0 c).arrAt 5 cfg0.N = whole m c :=
  (dats m 0 c).arrAt_eq_of_cover 5 (whole m c) (fun t _ => flushed_eq m c t) cover

/-- The kernel's run, read: the result array at `whole`, the arguments unchanged. -/
theorem run : θ_run defs (onTc (τ := τ) (main (F := Ideal))) ⟨m, fun _ => 0, ρ⟩ fun r => ∀ c : Dev nD,
      r.2.mem ((c : Thread nD τ).loc main_v23) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Tiles

end
-- ==== Proof.HostOperands.lean ====
/-
  The three small operands are the same on both sides.

  Before its one region the kernel's program normalises each weight matrix on the host — the row minimum and maximum, the
  difference from the minimum over the offset range — and transposes the mask; the reference does the same three things
  with the same operations and constants before its matrix products. So the arrays the region finds for its three small
  windows are the reference's three stages of the same arguments, term for term.
-/
import proofs.«181216_j52192442581052_1_alg».proof.Proof.Gen.KernelIdeal.Frame
import proofs.«181216_j52192442581052_1_alg».proof.Proof.Gen.ReferenceIdeal.Read
import Idealize.ShloMosaic.Lib.StableHlo.Run

noncomputable section

namespace Cert.HostOperands

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

set_option maxHeartbeats 1000000 in
/-- The first window of weights holds the reference's normalised first weight matrix. -/
theorem weights₁ (c : Dev Cert.KernelIdeal.nD) :
    (Cert.KernelIdeal.Gen.V m c Cert.KernelIdeal.main_v10 : Cert.KernelIdeal.S10x10.Idx → EReal)
      = Cert.ReferenceIdeal.Read.val_main_v10 (F := Ideal)
          (m ((c.tc : Thread Cert.KernelIdeal.nD Cert.KernelIdeal.τ).loc Cert.KernelIdeal.main_arg2)) := by
  dsimp only [Cert.KernelIdeal.Gen.V, Cert.KernelIdeal.Gen.hostOps0]
  after_results_simp
  rfl

set_option maxHeartbeats 1000000 in
/-- The second window of weights holds the reference's normalised second weight matrix. -/
theorem weights₂ (c : Dev Cert.KernelIdeal.nD) :
    (Cert.KernelIdeal.Gen.V m c Cert.KernelIdeal.main_v21 : Cert.KernelIdeal.S10x10.Idx → EReal)
      = Cert.ReferenceIdeal.Read.val_main_v22 (F := Ideal)
          (m ((c.tc : Thread Cert.KernelIdeal.nD Cert.KernelIdeal.τ).loc Cert.KernelIdeal.main_arg3)) := by
  dsimp only [Cert.KernelIdeal.Gen.V, Cert.KernelIdeal.Gen.hostOps0]
  after_results_simp
  rfl

set_option maxHeartbeats 1000000 in
/-- The bin window holds the reference's transposed mask. -/
theorem bins (c : Dev Cert.KernelIdeal.nD) :
    (Cert.KernelIdeal.Gen.V m c Cert.KernelIdeal.main_v22 : Cert.KernelIdeal.S100x19.Idx → EReal)
      = Cert.ReferenceIdeal.Read.val_main_v36 (F := Ideal)
          (m ((c.tc : Thread Cert.KernelIdeal.nD Cert.KernelIdeal.τ).loc Cert.KernelIdeal.main_arg4)) := by
  dsimp only [Cert.KernelIdeal.Gen.V, Cert.KernelIdeal.Gen.hostOps0]
  after_results_simp
  rfl

end Cert.HostOperands

end
-- ==== Proof.lean ====
/-
  Masked log-sum over a pair grid into 19 bins, row-tiled: the tiled kernel and the whole-array reference are one function.

  Both programs normalise two 10×10 weight matrices and transpose a 19×100 mask on the host, then send every row of two
  [1048576,10] probability arrays through the same row function (`Cert.RowSpec`): two leaf products, the 10×10 grid of
  clamped pairwise minima under a complemented logarithm, the masked sums into 19 bins, the exponential's complement, and
  a normalisation by the row's offset sum. The reference does this on whole arrays; the kernel on 64 row tiles of 16384
  rows, one per grid step. A row of the result depends on the same row of the inputs only, so a tile of the whole-array
  result is the result of the tile (`TileRows`), the 64 tiles cover the array (`Tiles`), and the two results agree
  element by element at the ideal values, where a matmul into a zero accumulator and a `dot_general`, a lane sum and a
  host sum, a kernel logarithm, exponential or quotient and the host's are the same exact operations. No law of
  arithmetic is needed beyond `0 + x = x`, so the inputs' finiteness is never opened. The ideal pass rewrote nothing, so
  `preserves` is trivial; the three frames are the generated ones.
-/
import proofs.«181216_j52192442581052_1_alg».proof.Defs
import proofs.«181216_j52192442581052_1_alg».proof.Proof.Gen.Kernel
import proofs.«181216_j52192442581052_1_alg».proof.Proof.Gen.Kernel.Skeleton
import proofs.«181216_j52192442581052_1_alg».proof.Proof.Gen.Kernel.Launch
import proofs.«181216_j52192442581052_1_alg».proof.Proof.Gen.Kernel.Points
import proofs.«181216_j52192442581052_1_alg».proof.Proof.Gen.Kernel.Frame
import proofs.«181216_j52192442581052_1_alg».proof.Proof.Gen.KernelIdeal
import proofs.«181216_j52192442581052_1_alg».proof.Proof.Gen.KernelIdeal.Skeleton
import proofs.«181216_j52192442581052_1_alg».proof.Proof.Gen.KernelIdeal.Launch
import proofs.«181216_j52192442581052_1_alg».proof.Proof.Gen.KernelIdeal.Points
import proofs.«181216_j52192442581052_1_alg».proof.Proof.Gen.KernelIdeal.Frame
import proofs.«181216_j52192442581052_1_alg».proof.Proof.Gen.ReferenceIdeal
import proofs.«181216_j52192442581052_1_alg».proof.Proof.Gen.Pre_finite_inputs
import proofs.«181216_j52192442581052_1_alg».proof.Proof.Gen.KernelIdeal.Value
import proofs.«181216_j52192442581052_1_alg».proof.Proof.Gen.ReferenceIdeal.Run
import proofs.«181216_j52192442581052_1_alg».proof.Proof.Gen.ReferenceIdeal.Read
import proofs.«181216_j52192442581052_1_alg».proof.Proof.RowSpec
import proofs.«181216_j52192442581052_1_alg».proof.Proof.RefRows
import proofs.«181216_j52192442581052_1_alg».proof.Proof.Tiles
import proofs.«181216_j52192442581052_1_alg».proof.Proof.HostOperands
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's whole-array function, with the five operands as the region finds them, is the row function of the
    arguments and of the reference's three host stages: the two probability arrays reach the region as launched, the
    three small operands are those stages. -/
theorem whole_eq (m : (ℓ : Loc Cert.KernelIdeal.nD Cert.KernelIdeal.τ Cert.KernelIdeal.sig) → Buf (Elt Ideal) ℓ)
    (c : Dev Cert.KernelIdeal.nD) :
    Cert.KernelIdeal.Tiles.whole m c
      = Cert.RowSpec.out (n := 1048576)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (Cert.ReferenceIdeal.Read.val_main_v10 (F := Ideal) (m ((c.tc : Thread Cert.KernelIdeal.nD Cert.KernelIdeal.τ).loc Cert.KernelIdeal.main_arg2)))
          (Cert.ReferenceIdeal.Read.val_main_v22 (F := Ideal) (m ((c.tc : Thread Cert.KernelIdeal.nD Cert.KernelIdeal.τ).loc Cert.KernelIdeal.main_arg3)))
          (Cert.ReferenceIdeal.Read.val_main_v36 (F := Ideal) (m ((c.tc : Thread Cert.KernelIdeal.nD Cert.KernelIdeal.τ).loc Cert.KernelIdeal.main_arg4))) :=
  congr (congr (congr (congr (congrArg (Cert.RowSpec.out (n := 1048576)) (Cert.KernelIdeal.Gen.V_main_arg0 m c))
    (Cert.KernelIdeal.Gen.V_main_arg1 m c)) (Cert.HostOperands.weights₁ m c)) (Cert.HostOperands.weights₂ m c))
    (Cert.HostOperands.bins m c)

/-- At the ideal values the kernel's result array ends at the row function of every row (its 64 tiles), the
    reference's at the same function read off its operations, of arguments that agree. -/
theorem algebraic : Cert.algebraic_KernelIdeal_ReferenceIdeal := by
  intro m ρ m' ρ' _ hagree
  refine ⟨fun c => Cert.KernelIdeal.Tiles.whole m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v46 m' c = Cert.KernelIdeal.Tiles.whole m c
  rw [Cert.ReferenceIdeal.Read.val_main_v46_eq, Cert.ReferenceIdeal.RefRows.result_eq,
    (hagree c).1, (hagree c).2.1, (hagree c).2.2.1, (hagree c).2.2.2.1, (hagree c).2.2.2.2]
  exact (whole_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
